-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S8192x2048 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S6x8192x2048 : Shape := ⟨3, ![6, 8192, 2048]⟩
abbrev S128x2048 : Shape := ⟨2, ![128, 2048]⟩
abbrev S6x128x2048 : Shape := ⟨3, ![6, 128, 2048]⟩
abbrev S1x128x2048 : Shape := ⟨3, ![1, 128, 2048]⟩

abbrev nBuf : Space → Nat
  | .hbm => 14
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S6x8192x2048, .f32⟩
  | .local _ .vmem, ⟨0, _⟩ => ⟨S128x2048, .f32⟩
  | .local _ .vmem, ⟨1, _⟩ => ⟨S128x2048, .f32⟩
  | .local _ .vmem, ⟨2, _⟩ => ⟨S2048x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S6x128x2048, .f32⟩
  | .local _ .vmem, ⟨9, _⟩ => ⟨S6x128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  inb_S6x128x2048_S1x128x2048_0_0_0 : ∀ a, (![0, 0, 0] : Fin 3 → Nat) a + S1x128x2048.size a ≤ S6x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  inb_S6x128x2048_S1x128x2048_3_0_0 : ∀ a, (![3, 0, 0] : Fin 3 → Nat) a + S1x128x2048.size a ≤ S6x128x2048.size a
  inb_S6x128x2048_S1x128x2048_1_0_0 : ∀ a, (![1, 0, 0] : Fin 3 → Nat) a + S1x128x2048.size a ≤ S6x128x2048.size a
  inb_S6x128x2048_S1x128x2048_4_0_0 : ∀ a, (![4, 0, 0] : Fin 3 → Nat) a + S1x128x2048.size a ≤ S6x128x2048.size a
  inb_S6x128x2048_S1x128x2048_2_0_0 : ∀ a, (![2, 0, 0] : Fin 3 → Nat) a + S1x128x2048.size a ≤ S6x128x2048.size a
  inb_S6x128x2048_S1x128x2048_5_0_0 : ∀ a, (![5, 0, 0] : Fin 3 → Nat) a + S1x128x2048.size a ≤ S6x128x2048.size a
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6x128x2048.size a ≤ S6x8192x2048.size a
  hwx0_7 : ∀ i : grid0.Coords, EltTy.bits .f32 = 32 ∨ (Rect.block (s := S6x8192x2048) S6x128x2048.size (cc0_transform_7 i) (hinb0_7 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S6x128x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S1x8192x2048 : Shape := ⟨3, ![1, 8192, 2048]⟩
abbrev S6x8192x2048 : Shape := ⟨3, ![6, 8192, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S8192x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S1x8192x2048, .f32⟩
  | .hbm, ⟨23, _⟩ => ⟨S1x8192x2048, .f32⟩
  | .hbm, ⟨24, _⟩ => ⟨S1x8192x2048, .f32⟩
  | .hbm, ⟨25, _⟩ => ⟨S1x8192x2048, .f32⟩
  | .hbm, ⟨26, _⟩ => ⟨S1x8192x2048, .f32⟩
  | .hbm, ⟨27, _⟩ => ⟨S1x8192x2048, .f32⟩
  | .hbm, ⟨28, _⟩ => ⟨S6x8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S8192x2048_S1x8192x2048_1_2 : S8192x2048.BroadcastsInDim S1x8192x2048 (![1, 2] : Fin 2 → Fin S1x8192x2048.rank)
  concatenates_S1x8192x2048_S1x8192x2048_S1x8192x2048_S1x8192x2048_S1x8192x2048_S1x8192x2048_S6x8192x2048_d0 : Shape.Concatenates [S1x8192x2048, S1x8192x2048, S1x8192x2048, S1x8192x2048, S1x8192x2048, S1x8192x2048] S6x8192x2048 0
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.DenseTanh.lean ====
/-
  Three dense layers with a tanh between them, read one row at a time.

  A row `u` of 2048 numbers goes through `u ↦ u · W + b` (entry `c` is `Σ_k u k · W k c + b c`), then through
  `tanh` entry by entry, three times over, each layer fed the previous layer's activations.  The six results kept
  for a row are the three pre-activations followed by the three activations.  Everything is over the extended reals:
  the sums are finite sums in a commutative monoid, so no order of summation matters and no finiteness is needed;
  `tanh` is the extended one (`-1` at `⊥`, `1` at `⊤`).

  The whole result, an array indexed by (slot, row, column), is this row function applied to each row of the input
  matrix; a block of rows of the result depends on the same block of rows of the input and on nothing else.
-/
import Idealize.ShloMosaic.PureOps.Ideal
import Idealize.ShloMosaic.Lib.ValueIdx

noncomputable section

open scoped BigOperators

namespace Cert.DenseTanh

open Idealize.ShloMosaic Idealize.ShloMosaic.ValueIdx

/-- One dense layer on one row: entry `c` of `u · W + b`. -/
def dense (W : Fin 2048 → Fin 2048 → EReal) (b : Fin 2048 → EReal) (u : Fin 2048 → EReal) : Fin 2048 → EReal :=
  fun c => (∑ k : Fin 2048, u k * W k c) + b c

/-- The activation of a row, entry by entry. -/
def act (u : Fin 2048 → EReal) : Fin 2048 → EReal := fun c => Ideal.tanh (u c)

/-- The weights and biases of the three layers, as functions of their coordinates. -/
structure Params where
  W0 : Fin 2048 → Fin 2048 → EReal
  b0 : Fin 2048 → EReal
  W1 : Fin 2048 → Fin 2048 → EReal
  b1 : Fin 2048 → EReal
  W2 : Fin 2048 → Fin 2048 → EReal
  b2 : Fin 2048 → EReal

variable (P : Params) (u : Fin 2048 → EReal)

/-- The first layer's pre-activation of a row. -/
def pre0 : Fin 2048 → EReal := dense P.W0 P.b0 u
/-- The second layer's, of the first layer's activation. -/
def pre1 : Fin 2048 → EReal := dense P.W1 P.b1 (act (pre0 P u))
/-- The third layer's, of the second layer's activation. -/
def pre2 : Fin 2048 → EReal := dense P.W2 P.b2 (act (pre1 P u))

/-- The six rows kept: pre-activations in slots 0, 1, 2 and activations in slots 3, 4, 5. -/
def slots : Fin 6 → Fin 2048 → EReal
  | ⟨0, _⟩ => pre0 P u
  | ⟨1, _⟩ => pre1 P u
  | ⟨2, _⟩ => pre2 P u
  | ⟨3, _⟩ => act (pre0 P u)
  | ⟨4, _⟩ => act (pre1 P u)
  | ⟨5, _⟩ => act (pre2 P u)

/-- A square matrix's entries by coordinates. -/
def mat (W : (⟨2, ![2048, 2048]⟩ : Shape).Idx → EReal) : Fin 2048 → Fin 2048 → EReal := fun k c => W (ix2 k c)
/-- A vector's entries by coordinate. -/
def vec (b : (⟨1, ![2048]⟩ : Shape).Idx → EReal) : Fin 2048 → EReal := fun c => b (ix1 c)
/-- Row `r` of a matrix with 2048 columns. -/
def row {R : Nat} (X : (⟨2, ![R, 2048]⟩ : Shape).Idx → EReal) (r : Fin R) : Fin 2048 → EReal := fun k => X (ix2 r k)

/-- The parameters read off the six weight and bias arrays. -/
def params (W0 : (⟨2, ![2048, 2048]⟩ : Shape).Idx → EReal) (b0 : (⟨1, ![2048]⟩ : Shape).Idx → EReal)
    (W1 : (⟨2, ![2048, 2048]⟩ : Shape).Idx → EReal) (b1 : (⟨1, ![2048]⟩ : Shape).Idx → EReal)
    (W2 : (⟨2, ![2048, 2048]⟩ : Shape).Idx → EReal) (b2 : (⟨1, ![2048]⟩ : Shape).Idx → EReal) : Params :=
  ⟨mat W0, vec b0, mat W1, vec b1, mat W2, vec b2⟩

/-- THE RESULT over `R` rows: at (slot, row, column), that slot of the row function of that row of `X`, at that column. -/
def stack {R : Nat} (P : Params) (X : (⟨2, ![R, 2048]⟩ : Shape).Idx → EReal) : (⟨3, ![6, R, 2048]⟩ : Shape).Idx → EReal :=
  fun i => slots P (row X (i 1)) (i 0) (i 2)

theorem stack_apply {R : Nat} (P : Params) (X : (⟨2, ![R, 2048]⟩ : Shape).Idx → EReal) (s : Fin 6) (r : Fin R) (c : Fin 2048) :
    stack P X (ix3 s r c) = slots P (row X r) s c := rfl

end Cert.DenseTanh

end
-- ==== Proof.BlockRows.lean ====
/-
  The kernel body's values on a block of 128 rows, read row by row.

  On a block the body computes each layer as a matrix product into a zero accumulator plus the bias row broadcast down
  the block.  At (p, q) the product is the sum over `k` of the left operand at (p, k) times the weight at (k, q), and
  `0 + Σ = Σ`; the bias row contributes its entry at `q`.  So row `p` of a layer's output is the dense layer of the
  specification applied to row `p` of its input, and rows never mix.  A change of float format is the identity on the
  extended reals, so the narrowing of a product's operands leaves no trace.  Composing the three layers, row `p` of each
  of the six stored values is the corresponding slot of the row function of row `p` of the input block.
-/
import proofs.«149321_j46909632807049_2_alg».proof.Proof.Gen.KernelIdeal.Skeleton
import proofs.«149321_j46909632807049_2_alg».proof.Proof.DenseTanh
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseTanh.Block

open Cert.KernelIdeal Cert.KernelIdeal.Gen Idealize.ShloMosaic Idealize.ShloMosaic.ValueIdx Cert.DenseTanh

/-! ## The product's operand indices: output (p, q) and contraction coordinate k read the left operand at (p, k) and
    the right at (k, q) -/

theorem lhs_row (i : S128x2048.Idx) (z : dot_S128x2048_S2048x2048_S128x2048_1_0_0_1_n_n.contr.Idx) :
    (dot_S128x2048_S2048x2048_S128x2048_1_0_0_1_n_n.lhsIdx i z 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem lhs_contr (i : S128x2048.Idx) (z : dot_S128x2048_S2048x2048_S128x2048_1_0_0_1_n_n.contr.Idx) :
    (dot_S128x2048_S2048x2048_S128x2048_1_0_0_1_n_n.lhsIdx i z 1).val = (z ⟨0, by decide⟩).val :=
  dot_S128x2048_S2048x2048_S128x2048_1_0_0_1_n_n.lhsIdx_val_of_single rfl i z
theorem rhs_contr (i : S128x2048.Idx) (z : dot_S128x2048_S2048x2048_S128x2048_1_0_0_1_n_n.contr.Idx) :
    (dot_S128x2048_S2048x2048_S128x2048_1_0_0_1_n_n.rhsIdx i z 0).val = (z ⟨0, by decide⟩).val :=
  dot_S128x2048_S2048x2048_S128x2048_1_0_0_1_n_n.rhsIdx_val_of_single rfl i z
theorem rhs_col (i : S128x2048.Idx) (z : dot_S128x2048_S2048x2048_S128x2048_1_0_0_1_n_n.contr.Idx) :
    (dot_S128x2048_S2048x2048_S128x2048_1_0_0_1_n_n.rhsIdx i z 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-! ## One layer on a block -/

/-- The bias block's one row, by column. -/
def brow (b : FVec Ideal S1x2048 .f32) : Fin 2048 → EReal := fun c => b (ix2 (0 : Fin 1) c)

/-- One layer as the body computes it on a block: the narrowed input times the weight block into a zero accumulator,
    plus the bias row broadcast over the block's rows. -/
def layer (u : FVec Ideal S128x2048 .f32) (w : FVec Ideal S2048x2048 .bf16) (bb : FVec Ideal S1x2048 .f32) : FVec Ideal S128x2048 .f32 :=
  addf (matmul dot_S128x2048_S2048x2048_S128x2048_1_0_0_1_n_n none (truncf .bf16 u bitsLt_bf16_f32)
      (shapeCast S2048x2048 w shapeCasts_S2048x2048_S2048x2048) (constant S128x2048 .f32 0x00000000#32))
    (broadcastTo S128x2048 (shapeCast S1x2048 bb shapeCasts_S1x2048_S1x2048) broadcasts_S1x2048_S128x2048)

/-- At (p, q): the sum along row `p` of the input against column `q` of the weights, plus the bias at `q`. -/
theorem layer_apply (u : FVec Ideal S128x2048 .f32) (w : FVec Ideal S2048x2048 .bf16) (bb : FVec Ideal S1x2048 .f32)
    (p : Fin 128) (q : Fin 2048) :
    layer u w bb (ix2 p q) = dense (mat w) (brow bb) (row u p) q := by
  unfold layer
  simp only [shapeCast_self]
  show matmul dot_S128x2048_S2048x2048_S128x2048_1_0_0_1_n_n none (truncf .bf16 u bitsLt_bf16_f32) w
        (constant S128x2048 .f32 0x00000000#32) (ix2 p q)
      + broadcastTo S128x2048 bb broadcasts_S1x2048_S128x2048 (ix2 p q)
    = (∑ k : Fin 2048, u (ix2 p k) * w (ix2 k q)) + bb (ix2 (0 : Fin 1) q)
  refine congrArg₂ (· + ·) ?_ (broadcastTo_1b_ab_apply bb broadcasts_S1x2048_S128x2048 p q)
  refine (Ideal.matmul_constant_zero_apply dot_S128x2048_S2048x2048_S128x2048_1_0_0_1_n_n none _ _ (ix2 p q)).trans ?_
  rw [← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 p q) ((contrEquiv1 dot_S128x2048_S2048x2048_S128x2048_1_0_0_1_n_n 2048 rfl rfl).symm k) = ix2 p k := funext fun a => Fin.ext (by
    match a with
    | ⟨0, _⟩ => exact lhs_row _ _
    | ⟨1, _⟩ => exact (lhs_contr _ _).trans hk)
  have er : dot_S128x2048_S2048x2048_S128x2048_1_0_0_1_n_n.rhsIdx (ix2 p q) ((contrEquiv1 dot_S128x2048_S2048x2048_S128x2048_1_0_0_1_n_n 2048 rfl rfl).symm k) = ix2 k q := funext fun a => Fin.ext (by
    match a with
    | ⟨0, _⟩ => exact (rhs_contr _ _).trans hk
    | ⟨1, _⟩ => exact rhs_col _ _)
  rw [el, er]
  rfl

/-- Row `p` of a layer's output is the dense layer of row `p` of its input. -/
theorem layer_row (u : FVec Ideal S128x2048 .f32) (w : FVec Ideal S2048x2048 .bf16) (bb : FVec Ideal S1x2048 .f32) (p : Fin 128) :
    row (layer u w bb) p = dense (mat w) (brow bb) (row u p) :=
  funext fun q => layer_apply u w bb p q

/-- Row `p` of the activation of a block is the activation of row `p`. -/
theorem tanh_row (u : FVec Ideal S128x2048 .f32) (p : Fin 128) : row (tanh u) p = act (row u p) := rfl

/-! ## The body's payloads are these layers composed -/

section
variable (x0 : FVec Ideal S128x2048 .f32) (x1 : FVec Ideal S2048x2048 .bf16) (x2 : FVec Ideal S1x2048 .f32)
  (x3 : FVec Ideal S2048x2048 .bf16) (x4 : FVec Ideal S1x2048 .f32) (x5 : FVec Ideal S2048x2048 .bf16) (x6 : FVec Ideal S1x2048 .f32)

/-- The three layers' parameters read off the weight and bias blocks. -/
def bparams : Params := ⟨mat x1, brow x2, mat x3, brow x4, mat x5, brow x6⟩

theorem pay_pre0 : k0_pay4 (F := Ideal) x0 x1 x2 = layer x0 x1 x2 := rfl
theorem pay_act0 : k0_pay6 (F := Ideal) x0 x1 x2 = tanh (layer x0 x1 x2) := rfl
theorem pay_pre1 : k0_pay8 (F := Ideal) x0 x1 x2 x3 x4 = layer (tanh (layer x0 x1 x2)) x3 x4 := rfl
theorem pay_act1 : k0_pay10 (F := Ideal) x0 x1 x2 x3 x4 = tanh (layer (tanh (layer x0 x1 x2)) x3 x4) := rfl
theorem pay_pre2 (v : FVec Ideal S128x2048 .f32) : k0_pay1 (F := Ideal) v x5 x6 = layer v x5 x6 := rfl

theorem row_pre0 (p : Fin 128) : row (k0_pay4 (F := Ideal) x0 x1 x2) p = pre0 (bparams x1 x2 x3 x4 x5 x6) (row x0 p) := by
  rw [pay_pre0, layer_row]; rfl
theorem row_act0 (p : Fin 128) : row (k0_pay6 (F := Ideal) x0 x1 x2) p = act (pre0 (bparams x1 x2 x3 x4 x5 x6) (row x0 p)) := by
  rw [pay_act0, tanh_row, ← pay_pre0, row_pre0 x0 x1 x2 x3 x4 x5 x6]
theorem row_pre1 (p : Fin 128) : row (k0_pay8 (F := Ideal) x0 x1 x2 x3 x4) p = pre1 (bparams x1 x2 x3 x4 x5 x6) (row x0 p) := by
  rw [pay_pre1, layer_row, ← pay_act0, row_act0 x0 x1 x2 x3 x4 x5 x6]; rfl
theorem row_act1 (p : Fin 128) : row (k0_pay10 (F := Ideal) x0 x1 x2 x3 x4) p = act (pre1 (bparams x1 x2 x3 x4 x5 x6) (row x0 p)) := by
  rw [pay_act1, tanh_row, ← pay_pre1, row_pre1 x0 x1 x2 x3 x4 x5 x6]
theorem row_pre2 (p : Fin 128) :
    row (k0_pay1 (F := Ideal) (k0_pay10 (F := Ideal) x0 x1 x2 x3 x4) x5 x6) p = pre2 (bparams x1 x2 x3 x4 x5 x6) (row x0 p) := by
  rw [pay_pre2, layer_row, row_act1 x0 x1 x2 x3 x4 x5 x6]; rfl
theorem row_act2 (p : Fin 128) :
    row (tanh (k0_pay1 (F := Ideal) (k0_pay10 (F := Ideal) x0 x1 x2 x3 x4) x5 x6)) p = act (pre2 (bparams x1 x2 x3 x4 x5 x6) (row x0 p)) := by
  rw [tanh_row, row_pre2 x0 x1 x2 x3 x4 x5 x6]

/-! ## The six stored pieces: each a block value given a leading axis of extent one -/

theorem piece0 (u : Fin 1) (p : Fin 128) (q : Fin 2048) :
    k0_pay5 (F := Ideal) x0 x1 x2 (ix3 u p q) = slots (bparams x1 x2 x3 x4 x5 x6) (row x0 p) 0 q :=
  (shapeCast_ab_1ab_apply (k0_pay4 (F := Ideal) x0 x1 x2) shapeCasts_S128x2048_S1x128x2048 u p q).trans
    (congrFun (row_pre0 x0 x1 x2 x3 x4 x5 x6 p) q)
theorem piece3 (u : Fin 1) (p : Fin 128) (q : Fin 2048) :
    k0_pay7 (F := Ideal) x0 x1 x2 (ix3 u p q) = slots (bparams x1 x2 x3 x4 x5 x6) (row x0 p) 3 q :=
  (shapeCast_ab_1ab_apply (k0_pay6 (F := Ideal) x0 x1 x2) shapeCasts_S128x2048_S1x128x2048 u p q).trans
    (congrFun (row_act0 x0 x1 x2 x3 x4 x5 x6 p) q)
theorem piece1 (u : Fin 1) (p : Fin 128) (q : Fin 2048) :
    k0_pay9 (F := Ideal) x0 x1 x2 x3 x4 (ix3 u p q) = slots (bparams x1 x2 x3 x4 x5 x6) (row x0 p) 1 q :=
  (shapeCast_ab_1ab_apply (k0_pay8 (F := Ideal) x0 x1 x2 x3 x4) shapeCasts_S128x2048_S1x128x2048 u p q).trans
    (congrFun (row_pre1 x0 x1 x2 x3 x4 x5 x6 p) q)
theorem piece4 (u : Fin 1) (p : Fin 128) (q : Fin 2048) :
    k0_pay11 (F := Ideal) x0 x1 x2 x3 x4 (ix3 u p q) = slots (bparams x1 x2 x3 x4 x5 x6) (row x0 p) 4 q :=
  (shapeCast_ab_1ab_apply (k0_pay10 (F := Ideal) x0 x1 x2 x3 x4) shapeCasts_S128x2048_S1x128x2048 u p q).trans
    (congrFun (row_act1 x0 x1 x2 x3 x4 x5 x6 p) q)
theorem piece2 (u : Fin 1) (p : Fin 128) (q : Fin 2048) :
    k0_pay2 (F := Ideal) (k0_pay10 (F := Ideal) x0 x1 x2 x3 x4) x5 x6 (ix3 u p q) = slots (bparams x1 x2 x3 x4 x5 x6) (row x0 p) 2 q :=
  (shapeCast_ab_1ab_apply (k0_pay1 (F := Ideal) (k0_pay10 (F := Ideal) x0 x1 x2 x3 x4) x5 x6) shapeCasts_S128x2048_S1x128x2048 u p q).trans
    (congrFun (row_pre2 x0 x1 x2 x3 x4 x5 x6 p) q)
theorem piece5 (u : Fin 1) (p : Fin 128) (q : Fin 2048) :
    k0_pay3 (F := Ideal) (k0_pay10 (F := Ideal) x0 x1 x2 x3 x4) x5 x6 (ix3 u p q) = slots (bparams x1 x2 x3 x4 x5 x6) (row x0 p) 5 q :=
  (shapeCast_ab_1ab_apply (tanh (k0_pay1 (F := Ideal) (k0_pay10 (F := Ideal) x0 x1 x2 x3 x4) x5 x6)) shapeCasts_S128x2048_S1x128x2048 u p q).trans
    (congrFun (row_act2 x0 x1 x2 x3 x4 x5 x6 p) q)

end

end Cert.DenseTanh.Block

end
-- ==== Proof.BlockStores.lean ====
/-
  What the body leaves in its output block: the six slots of the row function, row by row.

  The body stores six pieces into its (6, 128, 2048) output block, piece `s` filling slot `s` whole: rows and columns
  run over the whole block and the leading coordinate is the slot.  Each piece is a block value with a leading axis of
  extent one put in front, so at (slot, p, q) the block holds that slot of the row function of row `p` of the input
  block, at column `q`.  The six slots tile the block, so this describes every entry.
-/
import proofs.«149321_j46909632807049_2_alg».proof.Proof.Gen.KernelIdeal.Frame
import proofs.«149321_j46909632807049_2_alg».proof.Proof.BlockRows

noncomputable section

namespace Cert.DenseTanh.Block

open Cert.KernelIdeal Cert.KernelIdeal.Gen Idealize.ShloMosaic Idealize.ShloMosaic.ValueIdx Cert.DenseTanh

theorem zero2 : (![0, 0] : Fin 2 → Nat) = fun _ => 0 := funext fun a => by fin_cases a <;> rfl

/-- The piece stored at leading offset `o` sits at slot `o`, its rows and columns in place. -/
theorem emb_slot (o : Nat) (ho : o < 6) (inb : ∀ a, (![o, 0, 0] : Fin 3 → Nat) a + S1x128x2048.size a ≤ S6x128x2048.size a)
    (u : Fin 1) (p : Fin 128) (q : Fin 2048) :
    (Rect.unit (s := S6x128x2048) ![o, 0, 0] S1x128x2048.size inb).emb (ix3 u p q) = ix3 (⟨o, ho⟩ : Fin 6) p q :=
  funext fun a => Fin.ext (by
    match a with
    | ⟨0, _⟩ => show o + 1 * u.val = o; omega
    | ⟨1, _⟩ => show 0 + 1 * p.val = p.val; omega
    | ⟨2, _⟩ => show 0 + 1 * q.val = q.val; omega)

/-- THE OUTPUT BLOCK after the body is the stack of the row function over the input block's 128 rows. -/
theorem out_block (x0 : FVec Ideal S128x2048 .f32) (x1 : FVec Ideal S2048x2048 .bf16) (x2 : FVec Ideal S1x2048 .f32)
    (x3 : FVec Ideal S2048x2048 .bf16) (x4 : FVec Ideal S1x2048 .f32) (x5 : FVec Ideal S2048x2048 .bf16) (x6 : FVec Ideal S1x2048 .f32) :
    out0_7 (F := Ideal) x0 x1 x2 x3 x4 x5 x6 = stack (bparams x1 x2 x3 x4 x5 x6) x0 := by
  funext y
  unfold out0_7
  simp only [View.ld_unit_zero (S := S128x2048) zero2, View.ld_unit_zero (S := S2048x2048) zero2,
    View.ld_unit_zero (S := S1x2048) zero2]
  refine View.canon_apply_of_pieces (Val := Elt Ideal) (S := S6x128x2048) (e := .f32) (stack (bparams x1 x2 x3 x4 x5 x6) x0) _ (fun pc hpc => ?_) y (cover0_7 _ _ _ _ _ _ y)
  simp only [List.mem_cons, List.not_mem_nil, or_false] at hpc
  rcases hpc with rfl | rfl | rfl | rfl | rfl | rfl
  · intro (x : S1x128x2048.Idx)
    obtain ⟨u, p, q, rfl⟩ : ∃ (u : Fin 1) (p : Fin 128) (q : Fin 2048), x = ix3 u p q := ⟨x 0, x 1, x 2, eq_ix3 x⟩
    exact (piece5 x0 x1 x2 x3 x4 x5 x6 u p q).trans (by rw [emb_slot 5 (by omega)]; rfl)
  · intro (x : S1x128x2048.Idx)
    obtain ⟨u, p, q, rfl⟩ : ∃ (u : Fin 1) (p : Fin 128) (q : Fin 2048), x = ix3 u p q := ⟨x 0, x 1, x 2, eq_ix3 x⟩
    exact (piece2 x0 x1 x2 x3 x4 x5 x6 u p q).trans (by rw [emb_slot 2 (by omega)]; rfl)
  · intro (x : S1x128x2048.Idx)
    obtain ⟨u, p, q, rfl⟩ : ∃ (u : Fin 1) (p : Fin 128) (q : Fin 2048), x = ix3 u p q := ⟨x 0, x 1, x 2, eq_ix3 x⟩
    exact (piece4 x0 x1 x2 x3 x4 x5 x6 u p q).trans (by rw [emb_slot 4 (by omega)]; rfl)
  · intro (x : S1x128x2048.Idx)
    obtain ⟨u, p, q, rfl⟩ : ∃ (u : Fin 1) (p : Fin 128) (q : Fin 2048), x = ix3 u p q := ⟨x 0, x 1, x 2, eq_ix3 x⟩
    exact (piece1 x0 x1 x2 x3 x4 x5 x6 u p q).trans (by rw [emb_slot 1 (by omega)]; rfl)
  · intro (x : S1x128x2048.Idx)
    obtain ⟨u, p, q, rfl⟩ : ∃ (u : Fin 1) (p : Fin 128) (q : Fin 2048), x = ix3 u p q := ⟨x 0, x 1, x 2, eq_ix3 x⟩
    exact (piece3 x0 x1 x2 x3 x4 x5 x6 u p q).trans (by rw [emb_slot 3 (by omega)]; rfl)
  · intro (x : S1x128x2048.Idx)
    obtain ⟨u, p, q, rfl⟩ : ∃ (u : Fin 1) (p : Fin 128) (q : Fin 2048), x = ix3 u p q := ⟨x 0, x 1, x 2, eq_ix3 x⟩
    exact (piece0 x0 x1 x2 x3 x4 x5 x6 u p q).trans (by rw [emb_slot 0 (by omega)]; rfl)

end Cert.DenseTanh.Block

end
-- ==== Proof.KernelArray.lean ====
/-
  The kernel's result array is the stack of the row function over all 8192 rows of the input.

  The grid has 64 points; point `t` reads rows 128·t … 128·t + 127 of the input, all of each weight matrix and each
  bias row, and writes back the same rows of all six slots of the result.  The weights the body sees are the launched
  weights with their float format changed, which on the extended reals is the same numbers; the bias row it sees is the
  launched bias vector given a leading axis of extent one.  A block of rows of the stack depends on the same rows of the
  input alone, so what point `t` writes back is its block of the whole stack; the 64 blocks tile the rows, so the array
  ends as the whole stack.
-/
import proofs.«149321_j46909632807049_2_alg».proof.Proof.Gen.KernelIdeal.Value
import proofs.«149321_j46909632807049_2_alg».proof.Proof.BlockStores
import Idealize.ShloMosaic.Lib.StableHlo.Run
import Idealize.ShloMosaic.Lib.ValueLayout

noncomputable section

namespace Cert.DenseTanh

open Idealize.ShloMosaic Idealize.ShloMosaic.ValueIdx

/-- Rows `o … o + 127` of the stack over `R` rows are the stack over the 128-row block of the input at those rows. -/
theorem stack_rows {R : Nat} (P : Params) (X : (⟨2, ![R, 2048]⟩ : Shape).Idx → EReal)
    (xb : (⟨2, ![128, 2048]⟩ : Shape).Idx → EReal) (o : Nat) (ho : ∀ p : Fin 128, o + p.val < R)
    (hx : ∀ (p : Fin 128) (k : Fin 2048), xb (ix2 p k) = X (ix2 ⟨o + p.val, ho p⟩ k))
    (s : Fin 6) (p : Fin 128) (q : Fin 2048) :
    stack P xb (ix3 s p q) = stack P X (ix3 s ⟨o + p.val, ho p⟩ q) := by
  rw [stack_apply, stack_apply]
  exact congrArg (fun u => slots P u s q) (funext fun k => hx p k)

end Cert.DenseTanh

namespace Cert.DenseTanh.Kernel

open Cert.KernelIdeal Cert.KernelIdeal.Gen Idealize.ShloMosaic Idealize.ShloMosaic.TcCoe Idealize.SL.Sem
open Idealize.ShloMosaic.ValueIdx Idealize.ShloMosaic.StableHlo Cert.DenseTanh Cert.DenseTanh.Block
open Idealize.ShloMosaic.Pipeline (Dat)

variable (m : (ℓ : Loc nD τ sig) → Buf (Elt Ideal) ℓ) (ρ : Dev nD → PrngReg)

/-- The stack of the row function over the launched input's rows, with the launched weights and biases. -/
def result (c : Dev nD) : (⟨3, ![6, 8192, 2048]⟩ : Shape).Idx → EReal :=
  stack (params (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg0))

/-! ## Where each window's block sits: the printed index maps over the 64 grid points -/

theorem index_facts : ∀ t : Fin cfg0.N,
    win0_7.index t (0 : Fin 3) = 0 ∧ win0_7.index t (1 : Fin 3) = t.val ∧ win0_7.index t (2 : Fin 3) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem point_lt (t : Fin cfg0.N) (p : Fin 128) : t.val * 128 + p.val < 8192 := by
  have h : t.val < 64 := by have := t.isLt; have hN : cfg0.N = 64 := N_0; omega
  have := p.isLt
  omega

/-! ## What the region finds in the arrays the host operations wrote -/

theorem weights0 (c : Dev nD) :
    (V m c main_v0 : S2048x2048.Idx → EReal) = (truncf (F := Ideal) .bf16 (m ((c : Thread nD τ).loc main_arg1) : FVec Ideal S2048x2048 .f32) bitsLt_bf16_f32 : S2048x2048.Idx → EReal) := by
  dsimp only [Gen.V, Gen.hostOps0]; after_results
theorem weights1 (c : Dev nD) :
    (V m c main_v1 : S2048x2048.Idx → EReal) = (truncf (F := Ideal) .bf16 (m ((c : Thread nD τ).loc main_arg3) : FVec Ideal S2048x2048 .f32) bitsLt_bf16_f32 : S2048x2048.Idx → EReal) := by
  dsimp only [Gen.V, Gen.hostOps0]; after_results
theorem weights2 (c : Dev nD) :
    (V m c main_v2 : S2048x2048.Idx → EReal) = (truncf (F := Ideal) .bf16 (m ((c : Thread nD τ).loc main_arg5) : FVec Ideal S2048x2048 .f32) bitsLt_bf16_f32 : S2048x2048.Idx → EReal) := by
  dsimp only [Gen.V, Gen.hostOps0]; after_results
theorem bias0 (c : Dev nD) : (V m c main_v3 : S1x2048.Idx → EReal) = shapeCast S1x2048 (m ((c : Thread nD τ).loc main_arg2)) shapeCasts_S2048_S1x2048 := by
  dsimp only [Gen.V, Gen.hostOps0]; after_results; rfl
theorem bias1 (c : Dev nD) : (V m c main_v4 : S1x2048.Idx → EReal) = shapeCast S1x2048 (m ((c : Thread nD τ).loc main_arg4)) shapeCasts_S2048_S1x2048 := by
  dsimp only [Gen.V, Gen.hostOps0]; after_results; rfl
theorem bias2 (c : Dev nD) : (V m c main_v5 : S1x2048.Idx → EReal) = shapeCast S1x2048 (m ((c : Thread nD τ).loc main_arg6)) shapeCasts_S2048_S1x2048 := by
  dsimp only [Gen.V, Gen.hostOps0]; after_results; rfl

/-! ## The input windows' blocks at a point, read by coordinates -/

/-- Row `p` of the input block at point `t` is row 128·t + p of the launched input. -/
theorem input_block (c : Dev nD) (t : Fin cfg0.N) (p : Fin 128) (k : Fin 2048) :
    iblk m c 0 t (ix2 p k) = (m ((c : Thread nD τ).loc main_arg0)) (ix2 ⟨t.val * 128 + p.val, point_lt t p⟩ k) := by
  obtain ⟨-, -, -, e0, e1, -⟩ := index_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 2048 + 1 * k.val = k.val; omega

/-- The weight windows hold their whole matrices at every point. -/
theorem weight_block0 (c : Dev nD) (t : Fin cfg0.N) (k q : Fin 2048) : iblk m c 1 t (ix2 k q) = (m ((c : Thread nD τ).loc main_arg1)) (ix2 k q) := by
  obtain ⟨-, -, -, -, -, e0, e1, -⟩ := index_facts t
  show V m c main_v0 (((cfg0.win 1).blk t).view.emb (ix2 k q)) = _
  rw [weights0]
  show (m ((c : Thread nD τ).loc main_arg1)) _ = _
  refine congrArg _ (funext fun a => Fin.ext ?_)
  match a with
  | ⟨0, _⟩ => show win0_1.index t (0 : Fin 2) * 2048 + 1 * k.val = k.val; omega
  | ⟨1, _⟩ => show win0_1.index t (1 : Fin 2) * 2048 + 1 * q.val = q.val; omega
theorem weight_block1 (c : Dev nD) (t : Fin cfg0.N) (k q : Fin 2048) : iblk m c 3 t (ix2 k q) = (m ((c : Thread nD τ).loc main_arg3)) (ix2 k q) := by
  obtain ⟨-, -, -, -, -, -, -, -, -, e0, e1, -⟩ := index_facts t
  show V m c main_v1 (((cfg0.win 3).blk t).view.emb (ix2 k q)) = _
  rw [weights1]
  show (m ((c : Thread nD τ).loc main_arg3)) _ = _
  refine congrArg _ (funext fun a => Fin.ext ?_)
  match a with
  | ⟨0, _⟩ => show win0_3.index t (0 : Fin 2) * 2048 + 1 * k.val = k.val; omega
  | ⟨1, _⟩ => show win0_3.index t (1 : Fin 2) * 2048 + 1 * q.val = q.val; omega
theorem weight_block2 (c : Dev nD) (t : Fin cfg0.N) (k q : Fin 2048) : iblk m c 5 t (ix2 k q) = (m ((c : Thread nD τ).loc main_arg5)) (ix2 k q) := by
  obtain ⟨-, -, -, -, -, -, -, -, -, -, -, -, -, e0, e1, -⟩ := index_facts t
  show V m c main_v2 (((cfg0.win 5).blk t).view.emb (ix2 k q)) = _
  rw [weights2]
  show (m ((c : Thread nD τ).loc main_arg5)) _ = _
  refine congrArg _ (funext fun a => Fin.ext ?_)
  match a with
  | ⟨0, _⟩ => show win0_5.index t (0 : Fin 2) * 2048 + 1 * k.val = k.val; omega
  | ⟨1, _⟩ => show win0_5.index t (1 : Fin 2) * 2048 + 1 * q.val = q.val; omega

/-- The bias windows hold the bias vector as one row at every point. -/
theorem bias_block0 (c : Dev nD) (t : Fin cfg0.N) (q : Fin 2048) : iblk m c 2 t (ix2 (0 : Fin 1) q) = (m ((c : Thread nD τ).loc main_arg2)) (ix1 q) := by
  obtain ⟨-, -, -, -, -, -, -, e0, e1, -⟩ := index_facts t
  show V m c main_v3 (((cfg0.win 2).blk t).view.emb (ix2 (0 : Fin 1) q)) = _
  rw [bias0]
  have e : ((cfg0.win 2).blk t).view.emb (ix2 (0 : Fin 1) q) = ix2 (0 : Fin 1) q := funext fun a => Fin.ext (by
    match a with
    | ⟨0, _⟩ => show win0_2.index t (0 : Fin 2) * 1 + 1 * 0 = 0; omega
    | ⟨1, _⟩ => show win0_2.index t (1 : Fin 2) * 2048 + 1 * q.val = q.val; omega)
  rw [e]
  exact shapeCast_a_1a_apply _ _ 0 q
theorem bias_block1 (c : Dev nD) (t : Fin cfg0.N) (q : Fin 2048) : iblk m c 4 t (ix2 (0 : Fin 1) q) = (m ((c : Thread nD τ).loc main_arg4)) (ix1 q) := by
  obtain ⟨-, -, -, -, -, -, -, -, -, -, -, e0, e1, -⟩ := index_facts t
  show V m c main_v4 (((cfg0.win 4).blk t).view.emb (ix2 (0 : Fin 1) q)) = _
  rw [bias1]
  have e : ((cfg0.win 4).blk t).view.emb (ix2 (0 : Fin 1) q) = ix2 (0 : Fin 1) q := funext fun a => Fin.ext (by
    match a with
    | ⟨0, _⟩ => show win0_4.index t (0 : Fin 2) * 1 + 1 * 0 = 0; omega
    | ⟨1, _⟩ => show win0_4.index t (1 : Fin 2) * 2048 + 1 * q.val = q.val; omega)
  rw [e]
  exact shapeCast_a_1a_apply _ _ 0 q
theorem bias_block2 (c : Dev nD) (t : Fin cfg0.N) (q : Fin 2048) : iblk m c 6 t (ix2 (0 : Fin 1) q) = (m ((c : Thread nD τ).loc main_arg6)) (ix1 q) := by
  obtain ⟨-, -, -, -, -, -, -, -, -, -, -, -, -, -, -, e0, e1⟩ := index_facts t
  show V m c main_v5 (((cfg0.win 6).blk t).view.emb (ix2 (0 : Fin 1) q)) = _
  rw [bias2]
  have e : ((cfg0.win 6).blk t).view.emb (ix2 (0 : Fin 1) q) = ix2 (0 : Fin 1) q := funext fun a => Fin.ext (by
    match a with
    | ⟨0, _⟩ => show win0_6.index t (0 : Fin 2) * 1 + 1 * 0 = 0; omega
    | ⟨1, _⟩ => show win0_6.index t (1 : Fin 2) * 2048 + 1 * q.val = q.val; omega)
  rw [e]
  exact shapeCast_a_1a_apply _ _ 0 q

/-- So the parameters the body reads off its blocks are the launched ones, at every point. -/
theorem block_params (c : Dev nD) (t : Fin cfg0.N) :
    bparams (iblk m c 1 t) (iblk m c 2 t) (iblk m c 3 t) (iblk m c 4 t) (iblk m c 5 t) (iblk m c 6 t) = (params (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have h1 : mat (iblk m c 1 t) = mat (m ((c : Thread nD τ).loc main_arg1)) := funext fun k => funext fun q => weight_block0 m c t k q
  have h2 : brow (iblk m c 2 t) = vec (m ((c : Thread nD τ).loc main_arg2)) := funext fun q => bias_block0 m c t q
  have h3 : mat (iblk m c 3 t) = mat (m ((c : Thread nD τ).loc main_arg3)) := funext fun k => funext fun q => weight_block1 m c t k q
  have h4 : brow (iblk m c 4 t) = vec (m ((c : Thread nD τ).loc main_arg4)) := funext fun q => bias_block1 m c t q
  have h5 : mat (iblk m c 5 t) = mat (m ((c : Thread nD τ).loc main_arg5)) := funext fun k => funext fun q => weight_block2 m c t k q
  have h6 : brow (iblk m c 6 t) = vec (m ((c : Thread nD τ).loc main_arg6)) := funext fun q => bias_block2 m c t q
  unfold bparams params
  rw [h1, h2, h3, h4, h5, h6]

/-! ## From blocks to the array -/

/-- An entry of the output block at point `t` sits in the array at the same slot and column, at row 128·t + p. -/
theorem output_emb (t : Fin cfg0.N) (s : Fin 6) (p : Fin 128) (q : Fin 2048) :
    ((cfg0.win 7).blk t).view.emb (ix3 s p q) = ix3 s (⟨t.val * 128 + p.val, point_lt t p⟩ : Fin 8192) q := by
  obtain ⟨e0, e1, e2, -⟩ := index_facts t
  refine funext fun a => Fin.ext ?_
  match a with
  | ⟨0, _⟩ => show win0_7.index t (0 : Fin 3) * 6 + 1 * s.val = s.val; omega
  | ⟨1, _⟩ => show win0_7.index t (1 : Fin 3) * 128 + 1 * p.val = t.val * 128 + p.val; omega
  | ⟨2, _⟩ => show win0_7.index t (2 : Fin 3) * 2048 + 1 * q.val = q.val; omega

/-- WHAT POINT `t` WRITES BACK is its block of the whole stack. -/
theorem flushed_eq (c : Dev nD) (t : Fin cfg0.N) :
    (dats m 0 c).flushed 7 t = ((cfg0.win 7).blk t).view.read (Elt Ideal) (result m c) := by
  rw [Value.flushed7, out_block (iblk m c 0 t) (iblk m c 1 t) (iblk m c 2 t) (iblk m c 3 t) (iblk m c 4 t) (iblk m c 5 t) (iblk m c 6 t),
    block_params m c t]
  funext y
  obtain ⟨s, p, q, rfl⟩ : ∃ (s : Fin 6) (p : Fin 128) (q : Fin 2048), y = ix3 s p q := ⟨y 0, y 1, y 2, eq_ix3 y⟩
  show stack (params (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (iblk m c 0 t) (ix3 s p q) = result m c (((cfg0.win 7).blk t).view.emb (ix3 s p q))
  rw [output_emb t s p q]
  have h := stack_rows (params (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg0)) (iblk m c 0 t) (t.val * 128) (point_lt t) (input_block m c t) s p q
  exact h

/-- An index of the array is in point `t`'s block iff each coordinate is in the block's range on its axis. -/
theorem mem_block (t : Fin cfg0.N) (i : S6x8192x2048.Idx) :
    i ∈ ((cfg0.win 7).blk t).view.set ↔ ∀ a : Fin 3, win0_7.index t a * S6x128x2048.size a ≤ (i a).val ∧ (i a).val < win0_7.index t a * S6x128x2048.size a + S6x128x2048.size a := by
  show i ∈ ((View.whole main_v6).slice (win0_7.rect t)).set ↔ _
  rw [View.set_slice_whole, Rect.mem_set_unit]
  exact Iff.rfl

/-- Every index of the array lies in some point's block: the point is its row over 128. -/
theorem covered (i : S6x8192x2048.Idx) : ∃ t : Fin cfg0.N, (cfg0.win 7).flush t = true ∧ i ∈ ((cfg0.win 7).blk t).view.set := by
  have h0 : (i 0).val < 6 := (i 0).isLt
  have h1 : (i 1).val < 8192 := (i 1).isLt
  have h2 : (i 2).val < 2048 := (i 2).isLt
  have hN : cfg0.N = 64 := N_0
  let t : Fin cfg0.N := ⟨(i 1).val / 128, by rw [hN]; omega⟩
  have ht : t.val = (i 1).val / 128 := rfl
  obtain ⟨e0, e1, e2, -⟩ := index_facts t
  refine ⟨t, flush0_7 t, ?_⟩
  rw [mem_block]
  intro a
  match a with
  | ⟨0, _⟩ => show win0_7.index t (0 : Fin 3) * 6 ≤ (i 0).val ∧ (i 0).val < win0_7.index t (0 : Fin 3) * 6 + 6; omega
  | ⟨1, _⟩ => show win0_7.index t (1 : Fin 3) * 128 ≤ (i 1).val ∧ (i 1).val < win0_7.index t (1 : Fin 3) * 128 + 128; omega
  | ⟨2, _⟩ => show win0_7.index t (2 : Fin 3) * 2048 ≤ (i 2).val ∧ (i 2).val < win0_7.index t (2 : Fin 3) * 2048 + 2048; omega

/-- THE ARRAY after the run is the whole stack. -/
theorem final (c : Dev nD) : (dats m 0 c).arrAt 7 cfg0.N = result m c :=
  (dats m 0 c).arrAt_eq_of_cover 7 (result m c) (fun t _ => flushed_eq m c t) covered

/-- The kernel's run: the result array at the stack of the launched arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.DenseTanh.Kernel

end
-- ==== Proof.ReferenceRows.lean ====
/-
  The reference's result is the row function of the input's rows.

  Read at an index (slot, row, column), the reference's six stacked arrays are, slot by slot, the pre-activations and
  activations of three dense layers.  Each layer's matrix product at (row, column) is the sum over `k` of the previous
  layer's activation at (row, k) times the weight at (k, column): the contraction runs along a row, so the value at a
  row depends on that row of the input alone.  The bias, a vector broadcast down the rows, contributes its entry at the
  column.  The stack along the leading axis picks, at slot `s`, the `s`-th array at (row, column).
-/
import proofs.«149321_j46909632807049_2_alg».proof.Proof.Gen.ReferenceIdeal.Read
import proofs.«149321_j46909632807049_2_alg».proof.Proof.DenseTanh

noncomputable section

open scoped BigOperators

namespace Cert.DenseTanh.Reference

open Cert.ReferenceIdeal Cert.ReferenceIdeal.Read Idealize.ShloMosaic Idealize.ShloMosaic.ValueIdx Cert.DenseTanh

/-! ## The operand indices of the three products, the biases and the stack's pieces, by coordinates -/

theorem lidx0 (r : Fin 8192) (c k : Fin 2048) : lidx_main_v0 (ix2 r c) k = ix2 r k :=
  funext fun a => by match a with | ⟨0, _⟩ => rfl | ⟨1, _⟩ => rfl
theorem ridx0 (r : Fin 8192) (c k : Fin 2048) : ridx_main_v0 (ix2 r c) k = ix2 k c :=
  funext fun a => by match a with | ⟨0, _⟩ => rfl | ⟨1, _⟩ => rfl
theorem lidx5 (r : Fin 8192) (c k : Fin 2048) : lidx_main_v5 (ix2 r c) k = ix2 r k :=
  funext fun a => by match a with | ⟨0, _⟩ => rfl | ⟨1, _⟩ => rfl
theorem ridx5 (r : Fin 8192) (c k : Fin 2048) : ridx_main_v5 (ix2 r c) k = ix2 k c :=
  funext fun a => by match a with | ⟨0, _⟩ => rfl | ⟨1, _⟩ => rfl
theorem lidx10 (r : Fin 8192) (c k : Fin 2048) : lidx_main_v10 (ix2 r c) k = ix2 r k :=
  funext fun a => by match a with | ⟨0, _⟩ => rfl | ⟨1, _⟩ => rfl
theorem ridx10 (r : Fin 8192) (c k : Fin 2048) : ridx_main_v10 (ix2 r c) k = ix2 k c :=
  funext fun a => by match a with | ⟨0, _⟩ => rfl | ⟨1, _⟩ => rfl
theorem bidx0 (r : Fin 8192) (c : Fin 2048) : idx_main_v1 (idx_main_v2 (ix2 r c)) = ix1 c :=
  funext fun a => by match a with | ⟨0, _⟩ => rfl
theorem bidx1 (r : Fin 8192) (c : Fin 2048) : idx_main_v6 (idx_main_v7 (ix2 r c)) = ix1 c :=
  funext fun a => by match a with | ⟨0, _⟩ => rfl
theorem bidx2 (r : Fin 8192) (c : Fin 2048) : idx_main_v11 (idx_main_v12 (ix2 r c)) = ix1 c :=
  funext fun a => by match a with | ⟨0, _⟩ => rfl

section
variable (x0 : (⟨S8192x2048, .f32⟩ : BufTy).Contents (Elt Ideal)) (x1 : (⟨S2048x2048, .f32⟩ : BufTy).Contents (Elt Ideal))
  (x2 : (⟨S2048, .f32⟩ : BufTy).Contents (Elt Ideal)) (x3 : (⟨S2048x2048, .f32⟩ : BufTy).Contents (Elt Ideal))
  (x4 : (⟨S2048, .f32⟩ : BufTy).Contents (Elt Ideal)) (x5 : (⟨S2048x2048, .f32⟩ : BufTy).Contents (Elt Ideal))
  (x6 : (⟨S2048, .f32⟩ : BufTy).Contents (Elt Ideal))

/-! ## Layer by layer, at (row, column) -/

/-- The first sum plus bias is the first pre-activation of the row. -/
theorem pre0_at (r : Fin 8192) (c : Fin 2048) :
    val_main_v3 (F := Ideal) x0 x1 x2 (ix2 r c) = pre0 (params x1 x2 x3 x4 x5 x6) (row x0 r) c := by
  rw [val_main_v3_apply, val_main_v0_apply, val_main_v2_apply, val_main_v1_apply]
  simp only [lidx0, ridx0, bidx0]
  rfl

theorem act0_at (r : Fin 8192) (c : Fin 2048) :
    val_main_v4 (F := Ideal) x0 x1 x2 (ix2 r c) = act (pre0 (params x1 x2 x3 x4 x5 x6) (row x0 r)) c := by
  rw [val_main_v4_apply, pre0_at x0 x1 x2 x3 x4 x5 x6]
  rfl

/-- The second layer contracts the first layer's activations along the row. -/
theorem pre1_at (r : Fin 8192) (c : Fin 2048) :
    val_main_v8 (F := Ideal) x0 x1 x2 x3 x4 (ix2 r c) = pre1 (params x1 x2 x3 x4 x5 x6) (row x0 r) c := by
  rw [val_main_v8_apply, val_main_v5_apply, val_main_v7_apply, val_main_v6_apply]
  simp only [lidx5, ridx5, bidx1, act0_at x0 x1 x2 x3 x4 x5 x6]
  rfl

theorem act1_at (r : Fin 8192) (c : Fin 2048) :
    val_main_v9 (F := Ideal) x0 x1 x2 x3 x4 (ix2 r c) = act (pre1 (params x1 x2 x3 x4 x5 x6) (row x0 r)) c := by
  rw [val_main_v9_apply, pre1_at x0 x1 x2 x3 x4 x5 x6]
  rfl

/-- The third layer contracts the second layer's. -/
theorem pre2_at (r : Fin 8192) (c : Fin 2048) :
    val_main_v13 (F := Ideal) x0 x1 x2 x3 x4 x5 x6 (ix2 r c) = pre2 (params x1 x2 x3 x4 x5 x6) (row x0 r) c := by
  rw [val_main_v13_apply, val_main_v10_apply, val_main_v12_apply, val_main_v11_apply]
  simp only [lidx10, ridx10, bidx2, act1_at x0 x1 x2 x3 x4 x5 x6]
  rfl

theorem act2_at (r : Fin 8192) (c : Fin 2048) :
    val_main_v14 (F := Ideal) x0 x1 x2 x3 x4 x5 x6 (ix2 r c) = act (pre2 (params x1 x2 x3 x4 x5 x6) (row x0 r)) c := by
  rw [val_main_v14_apply, pre2_at x0 x1 x2 x3 x4 x5 x6]
  rfl

/-! ## The stack -/

/-- The six arrays stacked, each with a leading axis of extent one, as a family over the slot. -/
def pieces : Fin 6 → (S1x8192x2048.Idx → EReal)
  | ⟨0, _⟩ => val_main_v15 (F := Ideal) x0 x1 x2
  | ⟨1, _⟩ => val_main_v16 (F := Ideal) x0 x1 x2 x3 x4
  | ⟨2, _⟩ => val_main_v17 (F := Ideal) x0 x1 x2 x3 x4 x5 x6
  | ⟨3, _⟩ => val_main_v18 (F := Ideal) x0 x1 x2
  | ⟨4, _⟩ => val_main_v19 (F := Ideal) x0 x1 x2 x3 x4
  | ⟨5, _⟩ => val_main_v20 (F := Ideal) x0 x1 x2 x3 x4 x5 x6

/-- A piece's index with its unit leading coordinate dropped. -/
theorem pidx15 (u : Fin 1) (r : Fin 8192) (c : Fin 2048) : idx_main_v15 (ix3 u r c) = ix2 r c :=
  funext fun a => by match a with | ⟨0, _⟩ => rfl | ⟨1, _⟩ => rfl
theorem pidx16 (u : Fin 1) (r : Fin 8192) (c : Fin 2048) : idx_main_v16 (ix3 u r c) = ix2 r c :=
  funext fun a => by match a with | ⟨0, _⟩ => rfl | ⟨1, _⟩ => rfl
theorem pidx17 (u : Fin 1) (r : Fin 8192) (c : Fin 2048) : idx_main_v17 (ix3 u r c) = ix2 r c :=
  funext fun a => by match a with | ⟨0, _⟩ => rfl | ⟨1, _⟩ => rfl
theorem pidx18 (u : Fin 1) (r : Fin 8192) (c : Fin 2048) : idx_main_v18 (ix3 u r c) = ix2 r c :=
  funext fun a => by match a with | ⟨0, _⟩ => rfl | ⟨1, _⟩ => rfl
theorem pidx19 (u : Fin 1) (r : Fin 8192) (c : Fin 2048) : idx_main_v19 (ix3 u r c) = ix2 r c :=
  funext fun a => by match a with | ⟨0, _⟩ => rfl | ⟨1, _⟩ => rfl
theorem pidx20 (u : Fin 1) (r : Fin 8192) (c : Fin 2048) : idx_main_v20 (ix3 u r c) = ix2 r c :=
  funext fun a => by match a with | ⟨0, _⟩ => rfl | ⟨1, _⟩ => rfl

/-- Piece `s` at (0, row, column) is slot `s` of the row function. -/
theorem piece_at (s : Fin 6) (u : Fin 1) (r : Fin 8192) (c : Fin 2048) :
    pieces x0 x1 x2 x3 x4 x5 x6 s (ix3 u r c) = slots (params x1 x2 x3 x4 x5 x6) (row x0 r) s c := by
  match s with
  | ⟨0, _⟩ => exact (val_main_v15_apply x0 x1 x2 _).trans (by rw [pidx15]; exact pre0_at x0 x1 x2 x3 x4 x5 x6 r c)
  | ⟨1, _⟩ => exact (val_main_v16_apply x0 x1 x2 x3 x4 _).trans (by rw [pidx16]; exact pre1_at x0 x1 x2 x3 x4 x5 x6 r c)
  | ⟨2, _⟩ => exact (val_main_v17_apply x0 x1 x2 x3 x4 x5 x6 _).trans (by rw [pidx17]; exact pre2_at x0 x1 x2 x3 x4 x5 x6 r c)
  | ⟨3, _⟩ => exact (val_main_v18_apply x0 x1 x2 _).trans (by rw [pidx18]; exact act0_at x0 x1 x2 x3 x4 x5 x6 r c)
  | ⟨4, _⟩ => exact (val_main_v19_apply x0 x1 x2 x3 x4 _).trans (by rw [pidx19]; exact act1_at x0 x1 x2 x3 x4 x5 x6 r c)
  | ⟨5, _⟩ => exact (val_main_v20_apply x0 x1 x2 x3 x4 x5 x6 _).trans (by rw [pidx20]; exact act2_at x0 x1 x2 x3 x4 x5 x6 r c)

/-- THE REFERENCE'S RESULT is the stack of the row function over the input's rows. -/
theorem result_eq :
    val_main_v21 (F := Ideal) x0 x1 x2 x3 x4 x5 x6 = stack (params x1 x2 x3 x4 x5 x6) x0 := by
  funext i
  obtain ⟨s, r, c, rfl⟩ : ∃ (s : Fin 6) (r : Fin 8192) (c : Fin 2048), i = ix3 s r c := ⟨i 0, i 1, i 2, eq_ix3 i⟩
  unfold val_main_v21
  show concatenate S6x8192x2048 0
      (List.ofFn fun n : Fin 6 => (⟨S1x8192x2048, pieces x0 x1 x2 x3 x4 x5 x6 n⟩ : (s : Shape) × (s.Idx → EReal)))
      _ (ix3 s r c) = _
  refine (concatenate_ofFn_unit_apply (t := S6x8192x2048) (s₁ := S1x8192x2048) (0 : Fin 3) (pieces x0 x1 x2 x3 x4 x5 x6) _ rfl rfl (ix3 s r c) s rfl
    (ix3 (0 : Fin 1) r c) (fun b hb => ?_)).trans ?_
  · match b with
    | ⟨0, _⟩ => exact absurd rfl hb
    | ⟨1, _⟩ => rfl
    | ⟨2, _⟩ => rfl
  · exact piece_at x0 x1 x2 x3 x4 x5 x6 s 0 r c

end

end Cert.DenseTanh.Reference

end
-- ==== Proof.lean ====
/-
  Three dense layers with tanh activations on an [8192, 2048] batch: the kernel against its reference.

  Both programs compute, for every row `u` of the input, the pre-activations `z₀ = u·W₀ + b₀`, `z₁ = tanh z₀ · W₁ + b₁`,
  `z₂ = tanh z₁ · W₂ + b₂` and the activations `tanh z₀`, `tanh z₁`, `tanh z₂`, and return the six [8192, 2048] arrays
  stacked in that order.  The reference does it on whole arrays; the kernel does it 128 rows at a time, with the
  operands of each product narrowed to a shorter float format and the product accumulated into zero.

  Over the extended reals the two are one function, index by index: a change of float format is the identity; a product
  into a zero accumulator is the plain sum over the contraction index; that sum runs along a row, so a block of rows of
  the result depends on the same rows of the input only; and both programs' `tanh` is the same extended function.  No
  law used needs finiteness (only that finite sums and `+` are what they are), so the precondition is never opened.

  The statement of the result as one function is `DenseTanh.stack`; `ReferenceRows` shows the reference's run ends at
  it, `BlockRows`, `BlockStores` and `KernelArray` that the kernel's run does.  The three frames are the generated
  runs; nothing was rewritten in idealizing the kernel, so there is nothing to preserve.
-/
import proofs.«149321_j46909632807049_2_alg».proof.Defs
import proofs.«149321_j46909632807049_2_alg».proof.Proof.Gen.Kernel
import proofs.«149321_j46909632807049_2_alg».proof.Proof.Gen.Kernel.Skeleton
import proofs.«149321_j46909632807049_2_alg».proof.Proof.Gen.Kernel.Launch
import proofs.«149321_j46909632807049_2_alg».proof.Proof.Gen.Kernel.Points
import proofs.«149321_j46909632807049_2_alg».proof.Proof.Gen.Kernel.Frame
import proofs.«149321_j46909632807049_2_alg».proof.Proof.Gen.KernelIdeal
import proofs.«149321_j46909632807049_2_alg».proof.Proof.Gen.KernelIdeal.Skeleton
import proofs.«149321_j46909632807049_2_alg».proof.Proof.Gen.KernelIdeal.Launch
import proofs.«149321_j46909632807049_2_alg».proof.Proof.Gen.KernelIdeal.Points
import proofs.«149321_j46909632807049_2_alg».proof.Proof.Gen.KernelIdeal.Frame
import proofs.«149321_j46909632807049_2_alg».proof.Proof.Gen.ReferenceIdeal
import proofs.«149321_j46909632807049_2_alg».proof.Proof.Gen.Pre_finite_inputs
import proofs.«149321_j46909632807049_2_alg».proof.Proof.Gen.KernelIdeal.Value
import proofs.«149321_j46909632807049_2_alg».proof.Proof.Gen.ReferenceIdeal.Run
import proofs.«149321_j46909632807049_2_alg».proof.Proof.Gen.ReferenceIdeal.Read
import proofs.«149321_j46909632807049_2_alg».proof.Proof.KernelArray
import proofs.«149321_j46909632807049_2_alg».proof.Proof.ReferenceRows
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- Both runs end with the result array at the stack of the row function over the input's rows: the kernel's by its 64
    blocks of rows, the reference's by its six arrays read at an index; the arguments agree, so the two stacks are one. -/
theorem algebraic : Cert.algebraic_KernelIdeal_ReferenceIdeal := by
  intro m ρ m' ρ' _ hagree
  refine ⟨fun c => Cert.DenseTanh.Kernel.result m c, Cert.DenseTanh.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v21_eq, Cert.DenseTanh.Reference.result_eq, h0, h1, h2, h3, h4, h5, h6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
